-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x3136 : Shape := ⟨2, ![4096, 3136]⟩
abbrev S6272x3136 : Shape := ⟨2, ![6272, 3136]⟩
abbrev S500x6272 : Shape := ⟨2, ![500, 6272]⟩
abbrev S_ : Shape := ⟨0, ![]⟩

class Facts : Prop where
  bcast_S_S4096x3136 : S_.BroadcastsInDim S4096x3136 (![] : Fin 0 → Fin S4096x3136.rank)
  reducesTo_S4096x3136_S_d0_1 : S4096x3136.ReducesTo [0, 1] S_
  h_S_ : 0 < S_.numel
  bcast_S_S6272x3136 : S_.BroadcastsInDim S6272x3136 (![] : Fin 0 → Fin S6272x3136.rank)
  reducesTo_S6272x3136_S_d0_1 : S6272x3136.ReducesTo [0, 1] S_
  bcast_S_S500x6272 : S_.BroadcastsInDim S500x6272 (![] : Fin 0 → Fin S500x6272.rank)
  reducesTo_S500x6272_S_d0_1 : S500x6272.ReducesTo [0, 1] S_

variable [Facts]

def fn {F : FTy → Type} [FloatOps F] (main_arg0 : FVec F S4096x3136 .f32) (main_arg1 : FVec F S6272x3136 .f32) (main_arg2 : FVec F S500x6272 .f32) : IVec S_ 1 :=
  let main_v0 : FVec F S4096x3136 .f32 := Host.absf main_arg0
  let main_cst : FVec F S_ .f32 := constant S_ .f32 0x7F800000#32
  let main_v1 : FVec F S4096x3136 .f32 := broadcastInDim S4096x3136 ![] bcast_S_S4096x3136 main_cst
  let main_v2 : IVec S4096x3136 1 := cmpf .olt main_v0 main_v1
  let main_c : IVec S_ 1 := constantI S_ 1 1#1
  let main_v3 : IVec S_ 1 := (fun x v => Host.reduce IntOp.andi x v reducesTo_S4096x3136_S_d0_1 h_S_) main_v2 main_c
  let main_v4 : FVec F S6272x3136 .f32 := Host.absf main_arg1
  let main_cst_0 : FVec F S_ .f32 := constant S_ .f32 0x7F800000#32
  let main_v5 : FVec F S6272x3136 .f32 := broadcastInDim S6272x3136 ![] bcast_S_S6272x3136 main_cst_0
  let main_v6 : IVec S6272x3136 1 := cmpf .olt main_v4 main_v5
  let main_c_1 : IVec S_ 1 := constantI S_ 1 1#1
  let main_v7 : IVec S_ 1 := (fun x v => Host.reduce IntOp.andi x v reducesTo_S6272x3136_S_d0_1 h_S_) main_v6 main_c_1
  let main_v8 : IVec S_ 1 := andi main_v3 main_v7
  let main_v9 : FVec F S500x6272 .f32 := Host.absf main_arg2
  let main_cst_2 : FVec F S_ .f32 := constant S_ .f32 0x7F800000#32
  let main_v10 : FVec F S500x6272 .f32 := broadcastInDim S500x6272 ![] bcast_S_S500x6272 main_cst_2
  let main_v11 : IVec S500x6272 1 := cmpf .olt main_v9 main_v10
  let main_c_3 : IVec S_ 1 := constantI S_ 1 1#1
  let main_v12 : IVec S_ 1 := (fun x v => Host.reduce IntOp.andi x v reducesTo_S500x6272_S_d0_1 h_S_) main_v11 main_c_3
  let main_v13 : IVec S_ 1 := andi main_v8 main_v12
  main_v13
-- ==== Kernel.lean ====
abbrev S4096x3136 : Shape := ⟨2, ![4096, 3136]⟩
abbrev S6272x3136 : Shape := ⟨2, ![6272, 3136]⟩
abbrev S500x6272 : Shape := ⟨2, ![500, 6272]⟩
abbrev S_ : Shape := ⟨0, ![]⟩
abbrev S512x6272 : Shape := ⟨2, ![512, 6272]⟩
abbrev S4096x6272 : Shape := ⟨2, ![4096, 6272]⟩
abbrev S64x3136 : Shape := ⟨2, ![64, 3136]⟩
abbrev S64x6272 : Shape := ⟨2, ![64, 6272]⟩
abbrev S4096x512 : Shape := ⟨2, ![4096, 512]⟩
abbrev S256x6272 : Shape := ⟨2, ![256, 6272]⟩
abbrev S256x512 : Shape := ⟨2, ![256, 512]⟩
abbrev S4096x500 : Shape := ⟨2, ![4096, 500]⟩

abbrev nBuf : Space → Nat
  | .hbm => 12
  | .vmem => 10
  | .smem => 0
  | _ => 0

abbrev bufTy : (tb : Table) → Fin (tcTables nBuf tb) → BufTy
  | .hbm, ⟨0, _⟩ => ⟨S4096x3136, .f32⟩
  | .hbm, ⟨1, _⟩ => ⟨S6272x3136, .f32⟩
  | .hbm, ⟨2, _⟩ => ⟨S500x6272, .f32⟩
  | .hbm, ⟨3, _⟩ => ⟨S4096x3136, .bf16⟩
  | .hbm, ⟨4, _⟩ => ⟨S6272x3136, .bf16⟩
  | .hbm, ⟨5, _⟩ => ⟨S_, .i32⟩
  | .hbm, ⟨6, _⟩ => ⟨S_, .f32⟩
  | .hbm, ⟨7, _⟩ => ⟨S512x6272, .f32⟩
  | .hbm, ⟨8, _⟩ => ⟨S512x6272, .bf16⟩
  | .hbm, ⟨9, _⟩ => ⟨S4096x6272, .bf16⟩
  | .hbm, ⟨10, _⟩ => ⟨S4096x512, .f32⟩
  | .hbm, ⟨11, _⟩ => ⟨S4096x500, .f32⟩
  | .local _ .vmem, ⟨0, _⟩ => ⟨S64x3136, .bf16⟩
  | .local _ .vmem, ⟨1, _⟩ => ⟨S64x3136, .bf16⟩
  | .local _ .vmem, ⟨2, _⟩ => ⟨S6272x3136, .bf16⟩
  | .local _ .vmem, ⟨3, _⟩ => ⟨S64x6272, .bf16⟩
  | .local _ .vmem, ⟨4, _⟩ => ⟨S64x6272, .bf16⟩
  | .local _ .vmem, ⟨5, _⟩ => ⟨S256x6272, .bf16⟩
  | .local _ .vmem, ⟨6, _⟩ => ⟨S256x6272, .bf16⟩
  | .local _ .vmem, ⟨7, _⟩ => ⟨S512x6272, .bf16⟩
  | .local _ .vmem, ⟨8, _⟩ => ⟨S256x512, .f32⟩
  | .local _ .vmem, ⟨9, _⟩ => ⟨S256x512, .f32⟩
  | _, _ => ⟨S4096x3136, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x3136 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S6272x3136 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S64x6272 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x6272 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x6272 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S256x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  bitsLt_bf16_f32 : FTy.bits .bf16 < FTy.bits .f32
  pads_S500x6272_S512x6272_0120_000 : S500x6272.Pads (![0, 0] : Fin 2 → Nat) ![12, 0] ![0, 0] S512x6272
  h_S_ : 0 < S_.numel
  inb_S64x3136_S64x3136_0_0 : ∀ a, (![0, 0] : Fin 2 → Nat) a + S64x3136.size a ≤ S64x3136.size a
  h_S64x3136 : 0 < S64x3136.numel
  shapeCasts_S64x3136_S64x3136 : S64x3136.ShapeCasts S64x3136
  inb_S6272x3136_S6272x3136_0_0 : ∀ a, (![0, 0] : Fin 2 → Nat) a + S6272x3136.size a ≤ S6272x3136.size a
  h_S6272x3136 : 0 < S6272x3136.numel
  shapeCasts_S6272x3136_S6272x3136 : S6272x3136.ShapeCasts S6272x3136
  natLt_1_32 : 1 < 32
  inb_S64x6272_S64x6272_0_0 : ∀ a, (![0, 0] : Fin 2 → Nat) a + S64x6272.size a ≤ S64x6272.size a
  h_S64x6272 : 0 < S64x6272.numel
  packedbf16_S64x6272_S64x6272_0_0 : (Rect.unit (s := S64x6272) ![0, 0] S64x6272.size inb_S64x6272_S64x6272_0_0).PackedRows (EltTy.packing .bf16)
  inb_S256x6272_S256x6272_0_0 : ∀ a, (![0, 0] : Fin 2 → Nat) a + S256x6272.size a ≤ S256x6272.size a
  h_S256x6272 : 0 < S256x6272.numel
  shapeCasts_S256x6272_S256x6272 : S256x6272.ShapeCasts S256x6272
  inb_S512x6272_S512x6272_0_0 : ∀ a, (![0, 0] : Fin 2 → Nat) a + S512x6272.size a ≤ S512x6272.size a
  h_S512x6272 : 0 < S512x6272.numel
  shapeCasts_S512x6272_S512x6272 : S512x6272.ShapeCasts S512x6272
  inb_S256x512_S256x512_0_0 : ∀ a, (![0, 0] : Fin 2 → Nat) a + S256x512.size a ≤ S256x512.size a
  h_S256x512 : 0 < S256x512.numel
  slices_S4096x512_S4096x500_0_0 : S4096x512.Slices ![0, 0] S4096x500
  dot_S64x3136_S6272x3136_S64x6272_1_1_0_0_n_n_wf : DotDims.WF S64x3136 S6272x3136 S64x6272 [1] [1] [0] [0] [] []
  dot_S256x6272_S512x6272_S256x512_1_1_0_0_n_n_wf : DotDims.WF S256x6272 S512x6272 S256x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x3136.size a ≤ S4096x3136.size a
  hwx0_0 : ∀ i : grid0.Coords, EltTy.bits .bf16 = 32 ∨ (Rect.block (s := S4096x3136) S64x3136.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S6272x3136.size a ≤ S6272x3136.size a
  hwx0_1 : ∀ i : grid0.Coords, EltTy.bits .bf16 = 32 ∨ (Rect.block (s := S6272x3136) S6272x3136.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x6272.size a ≤ S4096x6272.size a
  hwx0_2 : ∀ i : grid0.Coords, EltTy.bits .bf16 = 32 ∨ (Rect.block (s := S4096x6272) S64x6272.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x6272.size a ≤ S4096x6272.size a
  hwx1_0 : ∀ i : grid1.Coords, EltTy.bits .bf16 = 32 ∨ (Rect.block (s := S4096x6272) S256x6272.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x6272.size a ≤ S512x6272.size a
  hwx1_1 : ∀ i : grid1.Coords, EltTy.bits .bf16 = 32 ∨ (Rect.block (s := S512x6272) S512x6272.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x512.size a ≤ S4096x512.size a
  hwx1_2 : ∀ i : grid1.Coords, EltTy.bits .f32 = 32 ∨ (Rect.block (s := S4096x512) S256x512.size (cc1_transform_2 i) (hinb1_2 i)).WholeWords (EltTy.packing .f32)

variable [Facts₀]

def dot_S64x3136_S6272x3136_S64x6272_1_1_0_0_n_n : DotDims S64x3136 S6272x3136 S64x6272 where
  lhsContracting := [1]
  rhsContracting := [1]
  lhsNonContracting := [0]
  rhsNonContracting := [0]
  lhsBatch := []
  rhsBatch := []
  wf := dot_S64x3136_S6272x3136_S64x6272_1_1_0_0_n_n_wf
def dot_S256x6272_S512x6272_S256x512_1_1_0_0_n_n : DotDims S256x6272 S512x6272 S256x512 where
  lhsContracting := [1]
  rhsContracting := [1]
  lhsNonContracting := [0]
  rhsNonContracting := [0]
  lhsBatch := []
  rhsBatch := []
  wf := dot_S256x6272_S512x6272_S256x512_1_1_0_0_n_n_wf

abbrev win0_0 : Pipeline.Window sig grid0 :=
  Pipeline.Window.ofSpec (Memref.whole main_v0) S64x3136.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S6272x3136.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S64x6272.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v4) S256x6272.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S512x6272.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v5) S256x512.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S4096x3136 : Shape := ⟨2, ![4096, 3136]⟩
abbrev S6272x3136 : Shape := ⟨2, ![6272, 3136]⟩
abbrev S500x6272 : Shape := ⟨2, ![500, 6272]⟩
abbrev S3136x6272 : Shape := ⟨2, ![3136, 6272]⟩
abbrev S4096x6272 : Shape := ⟨2, ![4096, 6272]⟩
abbrev S_ : Shape := ⟨0, ![]⟩
abbrev S6272x500 : Shape := ⟨2, ![6272, 500]⟩
abbrev S4096x500 : Shape := ⟨2, ![4096, 500]⟩

abbrev nBuf : Space → Nat
  | .hbm => 15
  | .vmem => 0
  | .smem => 0
  | _ => 0

abbrev bufTy : (tb : Table) → Fin (tcTables nBuf tb) → BufTy
  | .hbm, ⟨0, _⟩ => ⟨S4096x3136, .f32⟩
  | .hbm, ⟨1, _⟩ => ⟨S6272x3136, .f32⟩
  | .hbm, ⟨2, _⟩ => ⟨S500x6272, .f32⟩
  | .hbm, ⟨3, _⟩ => ⟨S3136x6272, .f32⟩
  | .hbm, ⟨4, _⟩ => ⟨S4096x6272, .f32⟩
  | .hbm, ⟨5, _⟩ => ⟨S_, .f32⟩
  | .hbm, ⟨6, _⟩ => ⟨S4096x6272, .f32⟩
  | .hbm, ⟨7, _⟩ => ⟨S4096x6272, .i1⟩
  | .hbm, ⟨8, _⟩ => ⟨S4096x6272, .f32⟩
  | .hbm, ⟨9, _⟩ => ⟨S6272x500, .f32⟩
  | .hbm, ⟨10, _⟩ => ⟨S4096x500, .f32⟩
  | .hbm, ⟨11, _⟩ => ⟨S_, .f32⟩
  | .hbm, ⟨12, _⟩ => ⟨S4096x500, .f32⟩
  | .hbm, ⟨13, _⟩ => ⟨S4096x500, .i1⟩
  | .hbm, ⟨14, _⟩ => ⟨S4096x500, .f32⟩
  | _, _ => ⟨S4096x3136, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]

class Facts₀ : Prop where
  transposes_S6272x3136_S3136x6272_1_0 : S6272x3136.Transposes [1, 0] S3136x6272
  bcast_S_S4096x6272 : S_.BroadcastsInDim S4096x6272 (![] : Fin 0 → Fin S4096x6272.rank)
  transposes_S500x6272_S6272x500_1_0 : S500x6272.Transposes [1, 0] S6272x500
  bcast_S_S4096x500 : S_.BroadcastsInDim S4096x500 (![] : Fin 0 → Fin S4096x500.rank)
  dot_S4096x3136_S3136x6272_S4096x6272_1_0_0_1_n_n_wf : DotDims.WF S4096x3136 S3136x6272 S4096x6272 [1] [0] [0] [1] [] []
  dot_S4096x6272_S6272x500_S4096x500_1_0_0_1_n_n_wf : DotDims.WF S4096x6272 S6272x500 S4096x500 [1] [0] [0] [1] [] []

variable [Facts₀]

def dot_S4096x3136_S3136x6272_S4096x6272_1_0_0_1_n_n : DotDims S4096x3136 S3136x6272 S4096x6272 where
  lhsContracting := [1]
  rhsContracting := [0]
  lhsNonContracting := [0]
  rhsNonContracting := [1]
  lhsBatch := []
  rhsBatch := []
  wf := dot_S4096x3136_S3136x6272_S4096x6272_1_0_0_1_n_n_wf
def dot_S4096x6272_S6272x500_S4096x500_1_0_0_1_n_n : DotDims S4096x6272 S6272x500 S4096x500 where
  lhsContracting := [1]
  rhsContracting := [0]
  lhsNonContracting := [0]
  rhsNonContracting := [1]
  lhsBatch := []
  rhsBatch := []
  wf := dot_S4096x6272_S6272x500_S4096x500_1_0_0_1_n_n_wf

class Facts : Prop extends Facts₀ where

variable [Facts]
-- ==== Proof.Spec.lean ====
/-
  The mathematics both programs compute, stated once over plain arrays of extended reals.

  One layer of integrate-and-fire neurons without leak, one time step from rest: neuron `n` of sample `b` receives the
  current `Σ_k x[b, k] · W[n, k]` and emits a spike (the value one, else zero) exactly when that current reaches the
  threshold one.  The network is two such layers: the hidden spikes of the first are the input of the second.
  The spike is written as the unsigned reading of the one-bit outcome of the comparison, which is how the host program
  spells it; a vector unit that first widens the bit to a 32-bit word and then reads the word as a signed integer
  obtains the same number, since a one-bit value widened with zeros is 0 or 1 under either reading.
-/
import Idealize.ShloMosaic.PureOps.Ideal
import Idealize.ShloMosaic.PureOps.Ideal.Laws
import Idealize.ShloMosaic.Lib.ValueIdx

noncomputable section

namespace Cert.Spike

open Idealize.ShloMosaic Idealize.ShloMosaic.ValueIdx

/-- The spike of one neuron: one when its input current `v` reaches the threshold `1.0`, zero otherwise. -/
def fire (v : EReal) : EReal :=
  FloatOps.uitofp (F := Ideal) .f32 (FloatOps.cmpf (F := Ideal) (φ := .f32) .oge v (Ideal.ofBits .f32 0x3F800000#32))

/-- One layer on a batch: `layer x W` at `(b, n)` is the spike of the current `Σ_k x[b, k] · W[n, k]`. -/
def layer {B K N : ℕ} (x : (⟨2, ![B, K]⟩ : Shape).Idx → EReal) (W : (⟨2, ![N, K]⟩ : Shape).Idx → EReal) :
    (⟨2, ![B, N]⟩ : Shape).Idx → EReal :=
  fun i => fire (∑ k : Fin K, x (ix2 (i 0) k) * W (ix2 (i 1) k))

theorem layer_apply {B K N : ℕ} (x : (⟨2, ![B, K]⟩ : Shape).Idx → EReal) (W : (⟨2, ![N, K]⟩ : Shape).Idx → EReal)
    (b : Fin B) (n : Fin N) : layer x W (ix2 b n) = fire (∑ k : Fin K, x (ix2 b k) * W (ix2 n k)) := rfl

/-- Extra weight rows do not change the neurons that are kept: if the first `N` rows of `W'` are the rows of `W`, the
    layer of `W'` at a neuron `n < N` is the layer of `W` there. -/
theorem layer_extend {B K N N' : ℕ} (hN : N ≤ N') (x : (⟨2, ![B, K]⟩ : Shape).Idx → EReal)
    (W : (⟨2, ![N, K]⟩ : Shape).Idx → EReal) (W' : (⟨2, ![N', K]⟩ : Shape).Idx → EReal)
    (h : ∀ (n : Fin N) (k : Fin K), W' (ix2 (⟨n.val, by omega⟩ : Fin N') k) = W (ix2 n k)) (b : Fin B) (n : Fin N) :
    layer x W' (ix2 b (⟨n.val, by omega⟩ : Fin N')) = layer x W (ix2 b n) := by
  rw [layer_apply, layer_apply]
  exact congrArg fire (Finset.sum_congr rfl fun k _ => by rw [h])

/-- A one-bit value widened with zeros to 32 bits and read as a signed integer is the bit read as an unsigned one. -/
theorem sitofp_setWidth (b : BitVec 1) :
    FloatOps.sitofp (F := Ideal) .f32 (b.setWidth 32) = FloatOps.uitofp (F := Ideal) .f32 b := by
  rcases BitVec.eq_zero_or_eq_one b with h | h <;> subst h <;> rfl

end Cert.Spike

end
-- ==== Proof.RefSpec.lean ====
/-
  The reference program computes the two-layer network of `Spec`.

  Read one operation at a time: the first product `x · W1ᵀ` at `(b, n)` is `Σ_k x[b, k] · W1ᵀ[k, n]`, and the transposed
  weight at `(k, n)` is `W1[n, k]`; comparing with the constant one and converting the one-bit outcome gives the hidden
  spikes.  The second product, comparison and conversion repeat this with the hidden spikes as input and `W2` as weights.
-/
import proofs.«143706_j15384572854746_2_alg».proof.Proof.Gen.ReferenceIdeal.Read
import proofs.«143706_j15384572854746_2_alg».proof.Proof.Spec

noncomputable section

namespace Cert.ReferenceIdeal.RefValue

open Cert.ReferenceIdeal Cert.ReferenceIdeal.Read Idealize.ShloMosaic Idealize.ShloMosaic.ValueIdx Cert.Spike

/-- The left factor of the first product at `(b, n)`, position `k`, is `x[b, k]`. -/
theorem lidx1 (i : S4096x6272.Idx) (k : Fin 3136) : lidx_main_v1 i k = ix2 (i 0) k :=
  funext fun a => by match a with | ⟨0, _⟩ => rfl | ⟨1, _⟩ => rfl

/-- The right factor of the first product at `(b, n)`, position `k`, read through the transposition, is `W1[n, k]`. -/
theorem ridx1 (i : S4096x6272.Idx) (k : Fin 3136) : idx_main_v0 (ridx_main_v1 i k) = ix2 (i 1) k :=
  funext fun a => by match a with | ⟨0, _⟩ => rfl | ⟨1, _⟩ => rfl

/-- The left factor of the second product at `(b, o)`, position `k`, is the hidden spike `(b, k)`. -/
theorem lidx2 (i : S4096x500.Idx) (k : Fin 6272) : lidx_main_v6 i k = ix2 (i 0) k :=
  funext fun a => by match a with | ⟨0, _⟩ => rfl | ⟨1, _⟩ => rfl

/-- The right factor of the second product at `(b, o)`, position `k`, read through the transposition, is `W2[o, k]`. -/
theorem ridx2 (i : S4096x500.Idx) (k : Fin 6272) : idx_main_v5 (ridx_main_v6 i k) = ix2 (i 1) k :=
  funext fun a => by match a with | ⟨0, _⟩ => rfl | ⟨1, _⟩ => rfl

/-- The reference's hidden spikes are the first layer. -/
theorem hidden_eq (x0 : S4096x3136.Idx → EReal) (x1 : S6272x3136.Idx → EReal) :
    val_main_v4 (F := Ideal) x0 x1 = layer (B := 4096) (K := 3136) (N := 6272) x0 x1 := by
  funext i
  rw [val_main_v4_apply, val_main_v3_apply, val_main_v1_apply, val_main_v2_apply, val_main_cst_apply]
  show fire _ = fire _
  refine congrArg fire (Finset.sum_congr rfl fun k _ => ?_)
  rw [val_main_v0_apply, lidx1, ridx1]
  rfl

/-- The reference's result is the second layer applied to the first. -/
theorem result_eq (x0 : S4096x3136.Idx → EReal) (x1 : S6272x3136.Idx → EReal) (x2 : S500x6272.Idx → EReal) :
    val_main_v9 (F := Ideal) x0 x1 x2
      = layer (B := 4096) (K := 6272) (N := 500) (layer (B := 4096) (K := 3136) (N := 6272) x0 x1) x2 := by
  funext i
  rw [val_main_v9_apply, val_main_v8_apply, val_main_v6_apply, val_main_v7_apply, val_main_cst_0_apply]
  show fire _ = fire _
  refine congrArg fire (Finset.sum_congr rfl fun k _ => ?_)
  rw [val_main_v5_apply, hidden_eq, lidx2, ridx2]
  rfl

end Cert.ReferenceIdeal.RefValue

end
-- ==== Proof.Whole.lean ====
/-
  The whole program's run, with its result named.

  The program is six stretches in a row: three of host operations, the two launches, one more host operation.  Every
  weakly fair execution walks them in order, and the contents of every buffer that outlives a launch are known at each
  boundary; after the last stretch they are the contents called `W6`.  The final memory is read against `W6` at the
  result buffer and at the three argument buffers; the arguments walk back to their launch contents because no stretch
  writes them.
-/
import proofs.«143706_j15384572854746_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer then holds the last
    boundary's contents at that buffer, and the argument buffers hold what they were launched with. -/
theorem run : θ_run defs (onTc (τ := τ) (main (F := F))) ⟨m, fun _ => 0, ρ⟩ (fun r => ∀ c : Dev nD,
      r.2.mem ((c.tc : Thread nD τ).loc main_v6) = W6 m ρ c (Proc.devRef .tc main_v6)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v6 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c)⟩)

end Cert.KernelIdeal.Whole

end
-- ==== Proof.LibMatmulT.lean ====
/-
  A matrix times a transposed matrix, read at an index.

  With the dimension numbers "contract axis 1 of the left operand against axis 1 of the right operand, no batch axis",
  the product of an [M, K] matrix `A` and an [N, K] matrix `B` is `A · Bᵀ`: its entry at `(a, b)` is
  `Σ_c A[a, c] · B[b, c]`. Stated at the ideal values for a kernel's matrix unit accumulating into zeros (only the
  sum is left) and into any accumulator (the accumulator's entry plus the sum), for arbitrary extents.
-/
import Idealize.ShloMosaic.PureOps.Ideal
import Idealize.ShloMosaic.PureOps.Ideal.Laws
import Idealize.ShloMosaic.Lib.ValueIdx

noncomputable section

namespace Idealize.ShloMosaic.MatmulT

open Idealize.ShloMosaic Idealize.ShloMosaic.ValueIdx

variable {M K N : ℕ} {φ₁ φ₂ : FTy}

/-- The left operand of `A · Bᵀ` is read at `(a, c)` and the right one at `(b, c)`, for the contraction position `c`. -/
theorem idx_apply (w : DotDims.WF ⟨2, ![M, K]⟩ ⟨2, ![N, K]⟩ ⟨2, ![M, N]⟩ [1] [1] [0] [0] [] []) (a : Fin M) (b : Fin N) (c : Fin K) :
    (⟨[1], [1], [0], [0], [], [], w⟩ : DotDims ⟨2, ![M, K]⟩ ⟨2, ![N, K]⟩ ⟨2, ![M, N]⟩).lhsIdx (ix2 a b)
        ((contrEquiv1 (⟨[1], [1], [0], [0], [], [], w⟩ : DotDims ⟨2, ![M, K]⟩ ⟨2, ![N, K]⟩ ⟨2, ![M, N]⟩) K rfl rfl).symm c) = ix2 a c
    ∧ (⟨[1], [1], [0], [0], [], [], w⟩ : DotDims ⟨2, ![M, K]⟩ ⟨2, ![N, K]⟩ ⟨2, ![M, N]⟩).rhsIdx (ix2 a b)
        ((contrEquiv1 (⟨[1], [1], [0], [0], [], [], w⟩ : DotDims ⟨2, ![M, K]⟩ ⟨2, ![N, K]⟩ ⟨2, ![M, N]⟩) K rfl rfl).symm c) = ix2 b c := by
  have c2 := contrEquiv1_symm_val
    (⟨[1], [1], [0], [0], [], [], w⟩ : DotDims ⟨2, ![M, K]⟩ ⟨2, ![N, K]⟩ ⟨2, ![M, N]⟩) K rfl rfl c
  constructor
  · funext ax; apply Fin.ext
    match ax with
    | ⟨0, _⟩ => simp [DotDims.lhsIdx]; rfl
    | ⟨1, _⟩ => simp [DotDims.lhsIdx]; exact c2
  · funext ax; apply Fin.ext
    match ax with
    | ⟨0, _⟩ => simp [DotDims.rhsIdx]; rfl
    | ⟨1, _⟩ => simp [DotDims.rhsIdx]; exact c2

/-- `A · Bᵀ` accumulated into `acc`, at `(a, b)`: the accumulator's entry plus `Σ_c A[a, c] · B[b, c]`. -/
theorem matmul_apply (w : DotDims.WF ⟨2, ![M, K]⟩ ⟨2, ![N, K]⟩ ⟨2, ![M, N]⟩ [1] [1] [0] [0] [] [])
    (prec : Option ContractPrecision) (A : FVec Ideal ⟨2, ![M, K]⟩ φ₁) (B : FVec Ideal ⟨2, ![N, K]⟩ φ₂)
    (acc : FVec Ideal ⟨2, ![M, N]⟩ .f32) (a : Fin M) (b : Fin N) :
    FloatOps.matmul (⟨[1], [1], [0], [0], [], [], w⟩ : DotDims ⟨2, ![M, K]⟩ ⟨2, ![N, K]⟩ ⟨2, ![M, N]⟩) prec A B acc (ix2 a b)
      = acc (ix2 a b) + ∑ c : Fin K, A (ix2 a c) * B (ix2 b c) := by
  rw [Ideal.matmul_apply,
    ← Equiv.sum_comp (contrEquiv1 (⟨[1], [1], [0], [0], [], [], w⟩ : DotDims ⟨2, ![M, K]⟩ ⟨2, ![N, K]⟩ ⟨2, ![M, N]⟩) K rfl rfl).symm]
  refine congrArg (acc (ix2 a b) + ·) (Finset.sum_congr rfl fun c _ => ?_)
  rw [(idx_apply w a b c).1, (idx_apply w a b c).2]

/-- `A · Bᵀ` into the zero accumulator, at `(a, b)`: `Σ_c A[a, c] · B[b, c]`. -/
theorem matmul_zero_apply (w : DotDims.WF ⟨2, ![M, K]⟩ ⟨2, ![N, K]⟩ ⟨2, ![M, N]⟩ [1] [1] [0] [0] [] [])
    (prec : Option ContractPrecision) (A : FVec Ideal ⟨2, ![M, K]⟩ φ₁) (B : FVec Ideal ⟨2, ![N, K]⟩ φ₂) (a : Fin M) (b : Fin N) :
    FloatOps.matmul (⟨[1], [1], [0], [0], [], [], w⟩ : DotDims ⟨2, ![M, K]⟩ ⟨2, ![N, K]⟩ ⟨2, ![M, N]⟩) prec A B
        (constant ⟨2, ![M, N]⟩ .f32 0x00000000#32) (ix2 a b)
      = ∑ c : Fin K, A (ix2 a c) * B (ix2 b c) := by
  rw [matmul_apply]
  show Ideal.ofBits .f32 0x00000000#32 + _ = _
  rw [Ideal.ofBits_zero_f32, zero_add]

end Idealize.ShloMosaic.MatmulT

end
-- ==== Proof.Payload.lean ====
/-
  What each kernel body stores, read at an index.

  The body of the first launch holds a block `x` of 64 input rows and the whole first weight matrix `W`; it forms
  `x · Wᵀ` into a zero accumulator, compares every entry with one, widens the one-bit outcome to a word, reads the word
  as a signed integer and stores that number.  Entry `(p, q)` of what it stores is therefore the spike of the current
  `Σ_k x[p, k] · W[q, k]`: entry `(p, q)` of the layer of `Spec` on these 64 rows.  The body of the second launch does
  the same with a block of 256 rows of hidden spikes and the second weight matrix extended to 512 rows.
-/
import proofs.«143706_j15384572854746_2_alg».proof.Proof.Gen.KernelIdeal.Skeleton
import proofs.«143706_j15384572854746_2_alg».proof.Proof.Spec
import proofs.«143706_j15384572854746_2_alg».proof.Proof.LibMatmulT
import Idealize.ShloMosaic.Lib.Pipeline.Value

noncomputable section

namespace Cert.KernelIdeal.Body

open Cert.KernelIdeal Cert.KernelIdeal.Gen Idealize.ShloMosaic Idealize.ShloMosaic.ValueIdx Cert.Spike

/-- The first body's stored value at `(p, q)` is the first layer on its 64 rows at `(p, q)`. -/
theorem pay0_apply (x0 : Vec Ideal S64x3136 .bf16) (x1 : Vec Ideal S6272x3136 .bf16) (p : Fin 64) (q : Fin 6272) :
    k0_pay1 (F := Ideal) x0 x1 (ix2 p q) = layer (B := 64) (K := 3136) (N := 6272) x0 x1 (ix2 p q) := by
  unfold k0_pay1
  rw [shapeCast_self, shapeCast_self, layer_apply]
  refine (sitofp_setWidth _).trans ?_
  unfold fire
  refine congrArg (fun v => FloatOps.uitofp (F := Ideal) .f32 (FloatOps.cmpf (F := Ideal) (φ := .f32) .oge v (Ideal.ofBits .f32 0x3F800000#32))) ?_
  exact MatmulT.matmul_zero_apply dot_S64x3136_S6272x3136_S64x6272_1_1_0_0_n_n_wf none x0 x1 p q

/-- The second body's stored value at `(p, q)` is the second layer on its 256 rows at `(p, q)`. -/
theorem pay1_apply (x0 : Vec Ideal S256x6272 .bf16) (x1 : Vec Ideal S512x6272 .bf16) (p : Fin 256) (q : Fin 512) :
    k1_pay1 (F := Ideal) x0 x1 (ix2 p q) = layer (B := 256) (K := 6272) (N := 512) x0 x1 (ix2 p q) := by
  unfold k1_pay1
  rw [shapeCast_self, shapeCast_self, layer_apply]
  refine (sitofp_setWidth _).trans ?_
  unfold fire
  refine congrArg (fun v => FloatOps.uitofp (F := Ideal) .f32 (FloatOps.cmpf (F := Ideal) (φ := .f32) .oge v (Ideal.ofBits .f32 0x3F800000#32))) ?_
  exact MatmulT.matmul_zero_apply dot_S256x6272_S512x6272_S256x512_1_1_0_0_n_n_wf none x0 x1 p q

end Cert.KernelIdeal.Body

end
-- ==== Proof.First.lean ====
/-
  The first launch, read as one array.

  The grid has 64 points; point `t` is given rows `64t … 64t + 63` of the input spikes and the whole first weight matrix,
  and writes back rows `64t … 64t + 63` of the hidden array.  What it writes at `(p, q)` depends only on input row
  `64t + p` and weight row `q`, so every block written is the matching block of ONE array, the first layer of the input
  and the weights; the 64 blocks tile the hidden array, which therefore ends holding that layer.  The contents of the
  buffers when the launch is entered are a parameter here.
-/
import proofs.«143706_j15384572854746_2_alg».proof.Proof.Gen.KernelIdeal.Frame
import proofs.«143706_j15384572854746_2_alg».proof.Proof.Payload
import Idealize.ShloMosaic.Lib.Pipeline.Value

noncomputable section

open Idealize.ShloMosaic Idealize.ShloMosaic.TcCoe Idealize.SL.Sem
open Idealize.ShloMosaic.Pipeline (Dat)

namespace Cert.KernelIdeal.First

open Cert.KernelIdeal Cert.KernelIdeal.Gen Idealize.ShloMosaic.ValueIdx Cert.Spike

-- the buffer contents the launch is entered with: a parameter, so that nothing here looks inside them
variable (V : (c : Dev nD) → (b : Ref sig .tc) → Buf (Elt Ideal) ((c : Thread nD τ).loc b))

theorem hz : (![0, 0] : Fin 2 → Nat) = fun _ => 0 := funext fun a => by fin_cases a <;> rfl

/-- Where the blocks sit: at grid point `t` the input rows and the output rows are block `t` along the batch axis and
    the only block along the other axis; the weight matrix is one block, the same at every point. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The input block at point `t` is rows `64·t … 64·t + 63` of the input array. -/
theorem rows_apply (c : Dev nD) (t : Fin cfg0.N) (y : S64x3136.Idx) (k : S4096x3136.Idx)
    (hk0 : (k 0).val = t.val * 64 + (y 0).val) (hk1 : (k 1).val = (y 1).val) :
    (iblk0 V c 0 t : Vec Ideal S64x3136 .bf16) y = (V c main_v0 : S4096x3136.Idx → EReal) k := by
  obtain ⟨e0, e1, -⟩ := idx_facts t
  unfold iblk0
  rw [View.read_apply]
  show V c main_v0 _ = V c main_v0 _
  refine congrArg (V c main_v0) (funext fun a => Fin.ext ?_)
  match a with
  | ⟨0, _⟩ => show win0_0.index t 0 * 64 + 1 * (y 0).val = (k 0).val; rw [e0, hk0]; omega
  | ⟨1, _⟩ => show win0_0.index t 1 * 3136 + 1 * (y 1).val = (k 1).val; rw [e1, hk1]; omega

/-- The weight block at every point is the whole weight array. -/
theorem weights_apply (c : Dev nD) (t : Fin cfg0.N) (y : S6272x3136.Idx) :
    (iblk0 V c 1 t : Vec Ideal S6272x3136 .bf16) y = (V c main_v1 : S6272x3136.Idx → EReal) y := by
  obtain ⟨-, -, e2, e3, -⟩ := idx_facts t
  unfold iblk0
  rw [View.read_apply]
  show V c main_v1 _ = V c main_v1 _
  refine congrArg (V c main_v1) (funext fun a => Fin.ext ?_)
  match a with
  | ⟨0, _⟩ => show win0_1.index t 0 * 6272 + 1 * (y 0).val = (y 0).val; rw [e2]; omega
  | ⟨1, _⟩ => show win0_1.index t 1 * 3136 + 1 * (y 1).val = (y 1).val; rw [e3]; omega

/-- What a body stores, entry by entry, when its row block is rows `64·T …` of `X` and its weight block is `W`: the
    layer of `X` and `W` at the row `64·T + p` and the same column. -/
theorem block_eq (X : S4096x3136.Idx → EReal) (W : S6272x3136.Idx → EReal)
    (x0 : Vec Ideal S64x3136 .bf16) (x1 : Vec Ideal S6272x3136 .bf16) (T : ℕ) (hT : T < 64)
    (h0 : ∀ (p : Fin 64) (k : Fin 3136), x0 (ix2 p k) = X (ix2 (⟨T * 64 + p.val, by omega⟩ : Fin 4096) k))
    (h1 : ∀ (q : Fin 6272) (k : Fin 3136), x1 (ix2 q k) = W (ix2 q k))
    (j : S64x6272.Idx) (i : S4096x6272.Idx) (hi0 : (i 0).val = T * 64 + (j 0).val) (hi1 : (i 1).val = (j 1).val) :
    k0_pay1 (F := Ideal) x0 x1 j = layer (B := 4096) (K := 3136) (N := 6272) X W i := by
  obtain ⟨p, q, rfl⟩ : ∃ (p : Fin 64) (q : Fin 6272), j = ix2 p q := ⟨j 0, j 1, eq_ix2 j⟩
  obtain ⟨a, b, rfl⟩ : ∃ (a : Fin 4096) (b : Fin 6272), i = ix2 a b := ⟨i 0, i 1, eq_ix2 i⟩
  have hb : b = q := Fin.ext hi1
  subst hb
  rw [Body.pay0_apply, layer_apply, layer_apply]
  refine congrArg fire (Finset.sum_congr rfl fun k _ => ?_)
  rw [h0, h1]
  exact congrArg (fun r => X (ix2 r k) * W (ix2 b k)) (Fin.ext hi0.symm)

/-- WHAT POINT `t` WRITES BACK is block `t` of the layer of the input array and the weight array. -/
theorem flushed_eq (c : Dev nD) (t : Fin cfg0.N) :
    (dat0 V c).flushed 2 t = ((cfg0.win 2).blk t).view.read (Elt Ideal)
      (layer (B := 4096) (K := 3136) (N := 6272) (V c main_v0) (V c main_v1)) := by
  show (cfg0.win 2).cut (grid0.coords t) ((dat0 V c).after 2 t) = _
  rw [after0_2]
  unfold out0_2
  rw [View.canon_unit_zero hz]
  simp only [View.ld_unit_zero (S := S64x3136) hz, View.ld_unit_zero (S := S6272x3136) hz]
  obtain ⟨-, -, -, -, e4, e5⟩ := idx_facts t
  have hN : cfg0.N = 64 := N_0
  have ht : t.val < 64 := by have := t.isLt; omega
  funext j
  show k0_pay1 (iblk0 V c 0 t) (iblk0 V c 1 t) j = layer (B := 4096) (K := 3136) (N := 6272) (V c main_v0) (V c main_v1) (((cfg0.win 2).blk t).view.emb j)
  refine block_eq (V c main_v0) (V c main_v1) (iblk0 V c 0 t) (iblk0 V c 1 t) t.val ht
    (fun p k => rows_apply V c t (ix2 p k) _ rfl rfl) (fun q k => weights_apply V c t (ix2 q k)) j _ ?_ ?_
  · show win0_2.index t 0 * 64 + 1 * (j 0).val = t.val * 64 + (j 0).val; rw [e4]; omega
  · show win0_2.index t 1 * 6272 + 1 * (j 1).val = (j 1).val; rw [e5]; omega

/-- An index of the output array is in point `t`'s block iff each coordinate is in the block's range on its axis. -/
theorem mem_blk (t : Fin cfg0.N) (i : S4096x6272.Idx) :
    i ∈ ((cfg0.win 2).blk t).view.set ↔ ∀ a : Fin 2, win0_2.index t a * S64x6272.size a ≤ (i a).val ∧ (i a).val < win0_2.index t a * S64x6272.size a + S64x6272.size a := by
  show i ∈ ((View.whole main_v4).slice (win0_2.rect t)).set ↔ _
  rw [View.set_slice_whole, Rect.mem_set_unit]
  exact Iff.rfl

/-- Every entry of the output array is written: row `r` by the point `r / 64`. -/
theorem cover (i : S4096x6272.Idx) : ∃ t : Fin cfg0.N, (cfg0.win 2).flush t = true ∧ i ∈ ((cfg0.win 2).blk t).view.set := by
  have hN : cfg0.N = 64 := N_0
  have hi0 : (i 0).val < 4096 := (i 0).isLt
  have hi1 : (i 1).val < 6272 := (i 1).isLt
  have hlt : (i 0).val / 64 < cfg0.N := by omega
  refine ⟨⟨(i 0).val / 64, hlt⟩, flush0_2 _, ?_⟩
  rw [mem_blk]
  obtain ⟨-, -, -, -, e4, e5⟩ := idx_facts ⟨(i 0).val / 64, hlt⟩
  intro a
  match a with
  | ⟨0, _⟩ =>
    show win0_2.index ⟨(i 0).val / 64, hlt⟩ (0 : Fin 2) * 64 ≤ (i 0).val ∧ (i 0).val < win0_2.index ⟨(i 0).val / 64, hlt⟩ (0 : Fin 2) * 64 + 64
    rw [e4]; show (i 0).val / 64 * 64 ≤ (i 0).val ∧ (i 0).val < (i 0).val / 64 * 64 + 64; omega
  | ⟨1, _⟩ =>
    show win0_2.index ⟨(i 0).val / 64, hlt⟩ (1 : Fin 2) * 6272 ≤ (i 1).val ∧ (i 1).val < win0_2.index ⟨(i 0).val / 64, hlt⟩ (1 : Fin 2) * 6272 + 6272
    rw [e5]; omega

/-- THE OUTPUT ARRAY after the launch: the layer of the input array and the weight array as the launch found them. -/
theorem final (c : Dev nD) :
    (dat0 V c).arrAt 2 cfg0.N = layer (B := 4096) (K := 3136) (N := 6272) (V c main_v0) (V c main_v1) :=
  (dat0 V c).arrAt_eq_of_cover 2 _ (fun t _ => flushed_eq V c t) cover

end Cert.KernelIdeal.First

end
-- ==== Proof.Second.lean ====
/-
  The second launch, read as one array.

  The grid has 16 points; point `t` is given rows `256t … 256t + 255` of the hidden spikes and the whole second weight
  matrix (extended to 512 rows), and writes back rows `256t … 256t + 255` of a 512-column output.  What it writes at
  `(p, q)` depends only on hidden row `256t + p` and weight row `q`, so every block written is the matching block of ONE
  array, the layer of the hidden spikes and the extended weights; the 16 blocks tile the output, which therefore ends
  holding that layer.  The contents of the buffers when the launch is entered are a parameter here.
-/
import proofs.«143706_j15384572854746_2_alg».proof.Proof.Gen.KernelIdeal.Frame
import proofs.«143706_j15384572854746_2_alg».proof.Proof.Payload
import Idealize.ShloMosaic.Lib.Pipeline.Value

noncomputable section

open Idealize.ShloMosaic Idealize.ShloMosaic.TcCoe Idealize.SL.Sem
open Idealize.ShloMosaic.Pipeline (Dat)

namespace Cert.KernelIdeal.Second

open Cert.KernelIdeal Cert.KernelIdeal.Gen Idealize.ShloMosaic.ValueIdx Cert.Spike

-- the buffer contents the launch is entered with: a parameter, so that nothing here looks inside them
variable (V : (c : Dev nD) → (b : Ref sig .tc) → Buf (Elt Ideal) ((c : Thread nD τ).loc b))

theorem hz : (![0, 0] : Fin 2 → Nat) = fun _ => 0 := funext fun a => by fin_cases a <;> rfl

/-- Where the blocks sit: at grid point `t` the input rows and the output rows are block `t` along the batch axis and
    the only block along the other axis; the weight matrix is one block, the same at every point. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The input block at point `t` is rows `256·t … 256·t + 255` of the input array. -/
theorem rows_apply (c : Dev nD) (t : Fin cfg1.N) (y : S256x6272.Idx) (k : S4096x6272.Idx)
    (hk0 : (k 0).val = t.val * 256 + (y 0).val) (hk1 : (k 1).val = (y 1).val) :
    (iblk1 V c 0 t : Vec Ideal S256x6272 .bf16) y = (V c main_v4 : S4096x6272.Idx → EReal) k := by
  obtain ⟨e0, e1, -⟩ := idx_facts t
  unfold iblk1
  rw [View.read_apply]
  show V c main_v4 _ = V c main_v4 _
  refine congrArg (V c main_v4) (funext fun a => Fin.ext ?_)
  match a with
  | ⟨0, _⟩ => show win1_0.index t 0 * 256 + 1 * (y 0).val = (k 0).val; rw [e0, hk0]; omega
  | ⟨1, _⟩ => show win1_0.index t 1 * 6272 + 1 * (y 1).val = (k 1).val; rw [e1, hk1]; omega

/-- The weight block at every point is the whole weight array. -/
theorem weights_apply (c : Dev nD) (t : Fin cfg1.N) (y : S512x6272.Idx) :
    (iblk1 V c 1 t : Vec Ideal S512x6272 .bf16) y = (V c main_v3 : S512x6272.Idx → EReal) y := by
  obtain ⟨-, -, e2, e3, -⟩ := idx_facts t
  unfold iblk1
  rw [View.read_apply]
  show V c main_v3 _ = V c main_v3 _
  refine congrArg (V c main_v3) (funext fun a => Fin.ext ?_)
  match a with
  | ⟨0, _⟩ => show win1_1.index t 0 * 512 + 1 * (y 0).val = (y 0).val; rw [e2]; omega
  | ⟨1, _⟩ => show win1_1.index t 1 * 6272 + 1 * (y 1).val = (y 1).val; rw [e3]; omega

/-- What a body stores, entry by entry, when its row block is rows `256·T …` of `X` and its weight block is `W`: the
    layer of `X` and `W` at the row `256·T + p` and the same column. -/
theorem block_eq (X : S4096x6272.Idx → EReal) (W : S512x6272.Idx → EReal)
    (x0 : Vec Ideal S256x6272 .bf16) (x1 : Vec Ideal S512x6272 .bf16) (T : ℕ) (hT : T < 16)
    (h0 : ∀ (p : Fin 256) (k : Fin 6272), x0 (ix2 p k) = X (ix2 (⟨T * 256 + p.val, by omega⟩ : Fin 4096) k))
    (h1 : ∀ (q : Fin 512) (k : Fin 6272), x1 (ix2 q k) = W (ix2 q k))
    (j : S256x512.Idx) (i : S4096x512.Idx) (hi0 : (i 0).val = T * 256 + (j 0).val) (hi1 : (i 1).val = (j 1).val) :
    k1_pay1 (F := Ideal) x0 x1 j = layer (B := 4096) (K := 6272) (N := 512) X W i := by
  obtain ⟨p, q, rfl⟩ : ∃ (p : Fin 256) (q : Fin 512), j = ix2 p q := ⟨j 0, j 1, eq_ix2 j⟩
  obtain ⟨a, b, rfl⟩ : ∃ (a : Fin 4096) (b : Fin 512), i = ix2 a b := ⟨i 0, i 1, eq_ix2 i⟩
  have hb : b = q := Fin.ext hi1
  subst hb
  rw [Body.pay1_apply, layer_apply, layer_apply]
  refine congrArg fire (Finset.sum_congr rfl fun k _ => ?_)
  rw [h0, h1]
  exact congrArg (fun r => X (ix2 r k) * W (ix2 b k)) (Fin.ext hi0.symm)

/-- WHAT POINT `t` WRITES BACK is block `t` of the layer of the input array and the weight array. -/
theorem flushed_eq (c : Dev nD) (t : Fin cfg1.N) :
    (dat1 V c).flushed 2 t = ((cfg1.win 2).blk t).view.read (Elt Ideal)
      (layer (B := 4096) (K := 6272) (N := 512) (V c main_v4) (V c main_v3)) := by
  show (cfg1.win 2).cut (grid1.coords t) ((dat1 V c).after 2 t) = _
  rw [after1_2]
  unfold out1_2
  rw [View.canon_unit_zero hz]
  simp only [View.ld_unit_zero (S := S256x6272) hz, View.ld_unit_zero (S := S512x6272) hz]
  obtain ⟨-, -, -, -, e4, e5⟩ := idx_facts t
  have hN : cfg1.N = 16 := N_1
  have ht : t.val < 16 := by have := t.isLt; omega
  funext j
  show k1_pay1 (iblk1 V c 0 t) (iblk1 V c 1 t) j = layer (B := 4096) (K := 6272) (N := 512) (V c main_v4) (V c main_v3) (((cfg1.win 2).blk t).view.emb j)
  refine block_eq (V c main_v4) (V c main_v3) (iblk1 V c 0 t) (iblk1 V c 1 t) t.val ht
    (fun p k => rows_apply V c t (ix2 p k) _ rfl rfl) (fun q k => weights_apply V c t (ix2 q k)) j _ ?_ ?_
  · show win1_2.index t 0 * 256 + 1 * (j 0).val = t.val * 256 + (j 0).val; rw [e4]; omega
  · show win1_2.index t 1 * 512 + 1 * (j 1).val = (j 1).val; rw [e5]; omega

/-- An index of the output array is in point `t`'s block iff each coordinate is in the block's range on its axis. -/
theorem mem_blk (t : Fin cfg1.N) (i : S4096x512.Idx) :
    i ∈ ((cfg1.win 2).blk t).view.set ↔ ∀ a : Fin 2, win1_2.index t a * S256x512.size a ≤ (i a).val ∧ (i a).val < win1_2.index t a * S256x512.size a + S256x512.size a := by
  show i ∈ ((View.whole main_v5).slice (win1_2.rect t)).set ↔ _
  rw [View.set_slice_whole, Rect.mem_set_unit]
  exact Iff.rfl

/-- Every entry of the output array is written: row `r` by the point `r / 256`. -/
theorem cover (i : S4096x512.Idx) : ∃ t : Fin cfg1.N, (cfg1.win 2).flush t = true ∧ i ∈ ((cfg1.win 2).blk t).view.set := by
  have hN : cfg1.N = 16 := N_1
  have hi0 : (i 0).val < 4096 := (i 0).isLt
  have hi1 : (i 1).val < 512 := (i 1).isLt
  have hlt : (i 0).val / 256 < cfg1.N := by omega
  refine ⟨⟨(i 0).val / 256, hlt⟩, flush1_2 _, ?_⟩
  rw [mem_blk]
  obtain ⟨-, -, -, -, e4, e5⟩ := idx_facts ⟨(i 0).val / 256, hlt⟩
  intro a
  match a with
  | ⟨0, _⟩ =>
    show win1_2.index ⟨(i 0).val / 256, hlt⟩ (0 : Fin 2) * 256 ≤ (i 0).val ∧ (i 0).val < win1_2.index ⟨(i 0).val / 256, hlt⟩ (0 : Fin 2) * 256 + 256
    rw [e4]; show (i 0).val / 256 * 256 ≤ (i 0).val ∧ (i 0).val < (i 0).val / 256 * 256 + 256; omega
  | ⟨1, _⟩ =>
    show win1_2.index ⟨(i 0).val / 256, hlt⟩ (1 : Fin 2) * 512 ≤ (i 1).val ∧ (i 1).val < win1_2.index ⟨(i 0).val / 256, hlt⟩ (1 : Fin 2) * 512 + 512
    rw [e5]; omega

/-- THE OUTPUT ARRAY after the launch: the layer of the input array and the weight array as the launch found them. -/
theorem final (c : Dev nD) :
    (dat1 V c).arrAt 2 cfg1.N = layer (B := 4096) (K := 6272) (N := 512) (V c main_v4) (V c main_v3) :=
  (dat1 V c).arrAt_eq_of_cover 2 _ (fun t _ => flushed_eq V c t) cover

end Cert.KernelIdeal.Second

end
-- ==== Proof.Entry.lean ====
/-
  What the two launches find in memory, and what the program returns from what they leave.

  Before the first launch the program rounds the input spikes and the first weight matrix to a narrower float format,
  which on exact values changes nothing, and extends the second weight matrix from 500 to 512 rows with rows of the
  converted integer zero, then rounds it too.  So the first launch finds the input and `W1` themselves, and the second
  launch finds, in rows below 500 of its weight array, the rows of `W2`.  After the second launch the program keeps
  columns 0 … 499 of the 512-column output.
-/
import proofs.«143706_j15384572854746_2_alg».proof.Proof.Gen.KernelIdeal.Frame
import Idealize.ShloMosaic.Lib.StableHlo.Run
import Idealize.ShloMosaic.Lib.KernelVsHost
import Idealize.ShloMosaic.Lib.ValueIdx

noncomputable section

open Idealize.ShloMosaic Idealize.ShloMosaic.TcCoe Idealize.SL.Sem

namespace Cert.KernelIdeal.Entry

open Cert.KernelIdeal Cert.KernelIdeal.Gen Idealize.ShloMosaic.ValueIdx

variable (m : (ℓ : Loc nD τ sig) → Buf (Elt Ideal) ℓ) (ρ : Dev nD → PrngReg)

/-- The first launch's input array is the input spikes. -/
theorem input_eq (c : Dev nD) :
    (V3 m ρ c main_v0 : S4096x3136.Idx → EReal) = m ((c : Thread nD τ).loc main_arg0) := by
  show StableHlo.after hostOps0_2 (StableHlo.after hostOps0_1 (StableHlo.after hostOps0 (W0 m ρ c))) (Proc.devRef .tc main_v0) = _
  after_results
  rfl

/-- The first launch's weight array is the first weight matrix. -/
theorem weights1_eq (c : Dev nD) :
    (V3 m ρ c main_v1 : S6272x3136.Idx → EReal) = m ((c : Thread nD τ).loc main_arg1) := by
  show StableHlo.after hostOps0_2 (StableHlo.after hostOps0_1 (StableHlo.after hostOps0 (W0 m ρ c))) (Proc.devRef .tc main_v1) = _
  after_results
  rfl

/-- The 512-row weight array is the second weight matrix extended by twelve rows of one value. -/
theorem weights2_eq (c : Dev nD) :
    (V3 m ρ c main_v3 : S512x6272.Idx → EReal)
      = pad S512x6272 ![0, 0] ![12, 0] ![0, 0] (m ((c : Thread nD τ).loc main_arg2))
          (sitofp (F := Ideal) .f32 (constantI S_ 32 0#32)) pads_S500x6272_S512x6272_0120_000 h_S_ := by
  show StableHlo.after hostOps0_2 (StableHlo.after hostOps0_1 (StableHlo.after hostOps0 (W0 m ρ c))) (Proc.devRef .tc main_v3) = _
  after_results
  rfl

/-- Row `q < 500` of the 512-row weight array is row `q` of the second weight matrix. -/
theorem weights2_apply (c : Dev nD) (q : Fin 500) (k : Fin 6272) :
    (V3 m ρ c main_v3 : S512x6272.Idx → EReal) (ix2 (⟨q.val, by omega⟩ : Fin 512) k)
      = (m ((c : Thread nD τ).loc main_arg2) : S500x6272.Idx → EReal) (ix2 q k) := by
  rw [weights2_eq]
  refine pad_apply_of_inside _ _ _ _ _ _ _ _ (ix2 q k) fun a => ?_
  match a with
  | ⟨0, _⟩ => show q.val = 0 + q.val * (0 + 1); omega
  | ⟨1, _⟩ => show k.val = 0 + k.val * (0 + 1); omega

/-- The returned array is columns 0 … 499 of what the second launch left. -/
theorem result_apply (c : Dev nD) (b : Fin 4096) (o : Fin 500) :
    (W6 m ρ c (Proc.devRef .tc main_v6) : S4096x500.Idx → EReal) (ix2 b o)
      = (W5 m ρ c (Proc.devRef .tc main_v5) : S4096x512.Idx → EReal) (ix2 b (⟨o.val, by omega⟩ : Fin 512)) := by
  have e : (W6 m ρ c (Proc.devRef .tc main_v6) : S4096x500.Idx → EReal)
      = extractStridedSlice S4096x500 ![0, 0] (W5 m ρ c (Proc.devRef .tc main_v5) : S4096x512.Idx → EReal) slices_S4096x512_S4096x500_0_0 := by
    show StableHlo.after hostOps2 (W5 m ρ c) (Proc.devRef .tc main_v6) = _
    after_results
  rw [e]
  refine extractStridedSlice_apply _ _ _ (ix2 b o) _ fun a => ?_
  match a with
  | ⟨0, _⟩ => show b.val = 0 + b.val; omega
  | ⟨1, _⟩ => show o.val = 0 + o.val; omega

end Cert.KernelIdeal.Entry

end
-- ==== Proof.Net.lean ====
/-
  The kernel program computes the two-layer network of `Spec`.

  The first launch finds the input spikes and `W1` and leaves the first layer in the hidden array; nothing between
  the launches touches the 512-row weight array, so the second launch finds the hidden spikes and the extended `W2`
  and leaves their layer in the 512-column output; the program returns columns 0 … 499 of it, and a kept column `o`
  only ever meets weight row `o < 500`, which is a row of `W2` itself.
-/
import proofs.«143706_j15384572854746_2_alg».proof.Proof.First
import proofs.«143706_j15384572854746_2_alg».proof.Proof.Second
import proofs.«143706_j15384572854746_2_alg».proof.Proof.Entry
import proofs.«143706_j15384572854746_2_alg».proof.Proof.Spec

noncomputable section

open Idealize.ShloMosaic Idealize.ShloMosaic.TcCoe Idealize.SL.Sem

namespace Cert.KernelIdeal.Net

open Cert.KernelIdeal Cert.KernelIdeal.Gen Idealize.ShloMosaic.ValueIdx Cert.Spike

variable (m : (ℓ : Loc nD τ sig) → Buf (Elt Ideal) ℓ) (ρ : Dev nD → PrngReg)

/-- After the first launch the hidden array holds the first layer of the input spikes and `W1`. -/
theorem hidden_eq (c : Dev nD) :
    (V4 m ρ c main_v4 : S4096x6272.Idx → EReal)
      = layer (B := 4096) (K := 3136) (N := 6272) (m ((c : Thread nD τ).loc main_arg0)) (m ((c : Thread nD τ).loc main_arg1)) := by
  refine (W4_arr m ρ c 2).trans ?_
  rw [First.final, Entry.input_eq, Entry.weights1_eq]

/-- The first launch leaves the 512-row weight array as it found it. -/
theorem weights_kept (c : Dev nD) :
    (V4 m ρ c main_v3 : S512x6272.Idx → EReal) = V3 m ρ c main_v3 :=
  W4_of_ne m ρ c main_v3 (by decide)

/-- After the second launch the 512-column output holds the layer of the hidden spikes and the 512-row weight array. -/
theorem wide_eq (c : Dev nD) :
    (W5 m ρ c (Proc.devRef .tc main_v5) : S4096x512.Idx → EReal)
      = layer (B := 4096) (K := 6272) (N := 512)
          (layer (B := 4096) (K := 3136) (N := 6272) (m ((c : Thread nD τ).loc main_arg0)) (m ((c : Thread nD τ).loc main_arg1)))
          (V3 m ρ c main_v3) := by
  refine (W5_arr m ρ c 2).trans ?_
  rw [Second.final, hidden_eq, weights_kept]

/-- The returned array is the second layer, with `W2`, of the first layer. -/
theorem result_eq (c : Dev nD) :
    (W6 m ρ c (Proc.devRef .tc main_v6) : S4096x500.Idx → EReal)
      = layer (B := 4096) (K := 6272) (N := 500)
          (layer (B := 4096) (K := 3136) (N := 6272) (m ((c : Thread nD τ).loc main_arg0)) (m ((c : Thread nD τ).loc main_arg1)))
          (m ((c : Thread nD τ).loc main_arg2)) := by
  funext i
  obtain ⟨b, o, rfl⟩ : ∃ (b : Fin 4096) (o : Fin 500), i = ix2 b o := ⟨i 0, i 1, eq_ix2 i⟩
  rw [Entry.result_apply, wide_eq]
  exact layer_extend (by decide) _ _ _ (fun n k => Entry.weights2_apply m ρ c n k) b o

end Cert.KernelIdeal.Net

end
-- ==== Proof.lean ====
/-
  Two layers of integrate-and-fire neurons, one step from rest: a Pallas program in two launches against its jnp
  reference, equal over the extended reals.

  Both programs compute, for a batch of 4096 spike vectors `x`, the hidden spikes `h[b, n] = [Σ_k x[b, k] · W1[n, k] ≥ 1]`
  and the output spikes `s[b, o] = [Σ_k h[b, k] · W2[o, k] ≥ 1]` (`Spec`).  The reference spells each product with a
  transposed weight matrix (`RefSpec`).  The kernel program rounds its operands to a narrower float format, which on
  exact values is the identity, extends `W2` to 512 rows, runs one launch per layer on row blocks of the batch
  (`Payload`: a body's stored entry; `First`, `Second`: each launch's output array as one function of its input arrays;
  `Entry`: the arrays the launches find and the columns kept at the end; `Whole`: the run with its result named; `Net`:
  the result as the two-layer network), and keeps the first 500 output columns: the twelve extra weight rows never
  reach a kept column.  The sums on the two sides run over the same index in the same form, so no law of the extended
  reals beyond rewriting equals by equals is used, and the inputs' finiteness is never opened.  The idealized kernel
  program is the printed one read at exact values (no rewrite was applied), so the sanctioned-idealization claim is
  `True`.  The three frames: the two kernel programs' are the generated ones; the reference's is its generated run with
  the result dropped.
-/
import proofs.«143706_j15384572854746_2_alg».proof.Defs
import proofs.«143706_j15384572854746_2_alg».proof.Proof.Gen.Kernel
import proofs.«143706_j15384572854746_2_alg».proof.Proof.Gen.Kernel.Skeleton
import proofs.«143706_j15384572854746_2_alg».proof.Proof.Gen.Kernel.Launch
import proofs.«143706_j15384572854746_2_alg».proof.Proof.Gen.Kernel.Points
import proofs.«143706_j15384572854746_2_alg».proof.Proof.Gen.Kernel.Frame
import proofs.«143706_j15384572854746_2_alg».proof.Proof.Gen.KernelIdeal
import proofs.«143706_j15384572854746_2_alg».proof.Proof.Gen.KernelIdeal.Skeleton
import proofs.«143706_j15384572854746_2_alg».proof.Proof.Gen.KernelIdeal.Launch
import proofs.«143706_j15384572854746_2_alg».proof.Proof.Gen.KernelIdeal.Points
import proofs.«143706_j15384572854746_2_alg».proof.Proof.Gen.KernelIdeal.Frame
import proofs.«143706_j15384572854746_2_alg».proof.Proof.Gen.ReferenceIdeal
import proofs.«143706_j15384572854746_2_alg».proof.Proof.Gen.ReferenceIdeal.Run
import proofs.«143706_j15384572854746_2_alg».proof.Proof.Gen.ReferenceIdeal.Read
import proofs.«143706_j15384572854746_2_alg».proof.Proof.Gen.Pre_finite_inputs
import proofs.«143706_j15384572854746_2_alg».proof.Proof.RefSpec
import proofs.«143706_j15384572854746_2_alg».proof.Proof.Whole
import proofs.«143706_j15384572854746_2_alg».proof.Proof.Net
import Idealize.ShloMosaic.Adequacy
import Idealize.ShloMosaic.Init

noncomputable section

namespace Cert.Proof

open Idealize.ShloMosaic Idealize.ShloMosaic.TcCoe Idealize.SL.Sem Cert.Spike

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- From memories that agree on `x`, `W1`, `W2`, both programs end with the two-layer network of those arrays in their
    result buffers: the kernel program by `Net.result_eq` over its run, the reference by `RefValue.result_eq` over its own. -/
theorem algebraic : Cert.algebraic_KernelIdeal_ReferenceIdeal := by
  intro m ρ m' ρ' _ hagree
  refine ⟨fun c => layer (B := 4096) (K := 6272) (N := 500)
      (layer (B := 4096) (K := 3136) (N := 6272) (m ((c.tc : Thread Cert.KernelIdeal.nD Cert.KernelIdeal.τ).loc Cert.KernelIdeal.main_arg0))
        (m ((c.tc : Thread Cert.KernelIdeal.nD Cert.KernelIdeal.τ).loc Cert.KernelIdeal.main_arg1)))
      (m ((c.tc : Thread Cert.KernelIdeal.nD Cert.KernelIdeal.τ).loc Cert.KernelIdeal.main_arg2)), ?_, ?_⟩
  · exact (θ_run Cert.KernelIdeal.defs _ _).mono
      (fun _ h c => ⟨(h c).1.trans (Cert.KernelIdeal.Net.result_eq m ρ c), (h c).2⟩)
      (Cert.KernelIdeal.Whole.run (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v9_eq, Cert.ReferenceIdeal.RefValue.result_eq,
      (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
